-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x4096 : Shape := ⟨3, ![2, 2048, 4096]⟩
abbrev S16384x4096 : Shape := ⟨2, ![16384, 4096]⟩
abbrev S16384x128 : Shape := ⟨2, ![16384, 128]⟩
abbrev S16384 : Shape := ⟨1, ![16384]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S16384x128 : S_.BroadcastsInDim S16384x128 (![] : Fin 0 → Fin S16384x128.rank)
  reducesTo_S16384x128_S_d0_1 : S16384x128.ReducesTo [0, 1] S_
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S2x2048x4096 .f32) (main_arg1 : IVec S16384x4096 32) (main_arg2 : FVec F S16384x128 .f32) (main_arg3 : FVec F S16384 .f32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S16384x128 .f32 := Host.absf main_arg2
  let main_cst_0 : FVec F S_ .f32 := constant S_ .f32 0x7F800000#32
  let main_v5 : FVec F S16384x128 .f32 := broadcastInDim S16384x128 ![] bcast_S_S16384x128 main_cst_0
  let main_v6 : IVec S16384x128 1 := cmpf .olt main_v4 main_v5
  let main_c_1 : IVec S_ 1 := constantI S_ 1 1#1
  let main_v7 : IVec S_ 1 := (fun x v => Host.reduce IntOp.andi x v reducesTo_S16384x128_S_d0_1 h_S_) main_v6 main_c_1
  let main_v8 : IVec S_ 1 := andi main_v3 main_v7
  let main_v9 : FVec F S16384 .f32 := Host.absf main_arg3
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  main_v13
-- ==== Kernel.lean ====
abbrev S2x2048x4096 : Shape := ⟨3, ![2, 2048, 4096]⟩
abbrev S16384x4096 : Shape := ⟨2, ![16384, 4096]⟩
abbrev S16384x128 : Shape := ⟨2, ![16384, 128]⟩
abbrev S16384 : Shape := ⟨1, ![16384]⟩
abbrev S4096x4096 : Shape := ⟨2, ![4096, 4096]⟩
abbrev S1x16384 : Shape := ⟨2, ![1, 16384]⟩
abbrev S4096x16384 : Shape := ⟨2, ![4096, 16384]⟩
abbrev S512x4096 : Shape := ⟨2, ![512, 4096]⟩
abbrev S256x4096 : Shape := ⟨2, ![256, 4096]⟩
abbrev S256x128 : Shape := ⟨2, ![256, 128]⟩
abbrev S1x256 : Shape := ⟨2, ![1, 256]⟩
abbrev S512x256 : Shape := ⟨2, ![512, 256]⟩
abbrev S256x128x32 : Shape := ⟨3, ![256, 128, 32]⟩
abbrev S256x128x1 : Shape := ⟨3, ![256, 128, 1]⟩
abbrev S2x2048x16384 : Shape := ⟨3, ![2, 2048, 16384]⟩

abbrev nBuf : Space → Nat
  | .hbm => 8
  | .vmem => 10
  | .smem => 0
  | _ => 0

abbrev bufTy : (tb : Table) → Fin (tcTables nBuf tb) → BufTy
  | .hbm, ⟨0, _⟩ => ⟨S2x2048x4096, .f32⟩
  | .hbm, ⟨1, _⟩ => ⟨S16384x4096, .i32⟩
  | .hbm, ⟨2, _⟩ => ⟨S16384x128, .f32⟩
  | .hbm, ⟨3, _⟩ => ⟨S16384, .f32⟩
  | .hbm, ⟨4, _⟩ => ⟨S4096x4096, .f32⟩
  | .hbm, ⟨5, _⟩ => ⟨S1x16384, .f32⟩
  | .hbm, ⟨6, _⟩ => ⟨S4096x16384, .f32⟩
  | .hbm, ⟨7, _⟩ => ⟨S2x2048x16384, .f32⟩
  | .local _ .vmem, ⟨0, _⟩ => ⟨S512x4096, .f32⟩
  | .local _ .vmem, ⟨1, _⟩ => ⟨S512x4096, .f32⟩
  | .local _ .vmem, ⟨2, _⟩ => ⟨S256x4096, .i32⟩
  | .local _ .vmem, ⟨3, _⟩ => ⟨S256x4096, .i32⟩
  | .local _ .vmem, ⟨4, _⟩ => ⟨S256x128, .f32⟩
  | .local _ .vmem, ⟨5, _⟩ => ⟨S256x128, .f32⟩
  | .local _ .vmem, ⟨6, _⟩ => ⟨S1x256, .f32⟩
  | .local _ .vmem, ⟨7, _⟩ => ⟨S1x256, .f32⟩
  | .local _ .vmem, ⟨8, _⟩ => ⟨S512x256, .f32⟩
  | .local _ .vmem, ⟨9, _⟩ => ⟨S512x256, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S2x2048x4096_S4096x4096 : S2x2048x4096.ShapeCasts S4096x4096
  shapeCasts_S16384_S1x16384 : S16384.ShapeCasts S1x16384
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  bitsLt_bf16_f32 : FTy.bits .bf16 < FTy.bits .f32
  inb_S256x4096_S256x4096_0_0 : ∀ a, (![0, 0] : Fin 2 → Nat) a + S256x4096.size a ≤ S256x4096.size a
  h_S256x4096 : 0 < S256x4096.numel
  shapeCasts_S256x4096_S256x128x32 : S256x4096.ShapeCasts S256x128x32
  inb_S256x128_S256x128_0_0 : ∀ a, (![0, 0] : Fin 2 → Nat) a + S256x128.size a ≤ S256x128.size a
  h_S256x128 : 0 < S256x128.numel
  shapeCasts_S256x128_S256x128x1 : S256x128.ShapeCasts S256x128x1
  broadcasts_S256x128x1_S256x128x32 : S256x128x1.Broadcasts S256x128x32
  shapeCasts_S256x128x32_S256x4096 : S256x128x32.ShapeCasts S256x4096
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S512x256_S512x256_0_0 : ∀ a, (![0, 0] : Fin 2 → Nat) a + S512x256.size a ≤ S512x256.size a
  h_S512x256 : 0 < S512x256.numel
  shapeCasts_S4096x16384_S2x2048x16384 : S4096x16384.ShapeCasts S2x2048x16384
  dot_S512x4096_S256x4096_S512x256_1_1_0_0_n_n_wf : DotDims.WF S512x4096 S256x4096 S512x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S16384x4096.size a
  hwx0_1 : ∀ i : grid0.Coords, EltTy.bits .i32 = 32 ∨ (Rect.block (s := S16384x4096) S256x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S16384x128.size a
  hwx0_2 : ∀ i : grid0.Coords, EltTy.bits .f32 = 32 ∨ (Rect.block (s := S16384x128) S256x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x16384.size a
  hwx0_3 : ∀ i : grid0.Coords, EltTy.bits .f32 = 32 ∨ (Rect.block (s := S1x16384) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S4096x16384.size a
  hwx0_4 : ∀ i : grid0.Coords, EltTy.bits .f32 = 32 ∨ (Rect.block (s := S4096x16384) S512x256.size (cc0_transform_4 i) (hinb0_4 i)).WholeWords (EltTy.packing .f32)

variable [Facts₀]

def dot_S512x4096_S256x4096_S512x256_1_1_0_0_n_n : DotDims S512x4096 S256x4096 S512x256 where
  lhsContracting := [1]
  rhsContracting := [1]
  lhsNonContracting := [0]
  rhsNonContracting := [0]
  lhsBatch := []
  rhsBatch := []
  wf := dot_S512x4096_S256x4096_S512x256_1_1_0_0_n_n_wf

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S512x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x2048x4096 : Shape := ⟨3, ![2, 2048, 4096]⟩
abbrev S16384x4096 : Shape := ⟨2, ![16384, 4096]⟩
abbrev S16384x128 : Shape := ⟨2, ![16384, 128]⟩
abbrev S16384 : Shape := ⟨1, ![16384]⟩
abbrev S_ : Shape := ⟨0, ![]⟩
abbrev S16384x128x32 : Shape := ⟨3, ![16384, 128, 32]⟩
abbrev S16384x128x1 : Shape := ⟨3, ![16384, 128, 1]⟩
abbrev S2x2048x16384 : Shape := ⟨3, ![2, 2048, 16384]⟩
abbrev S1x1x16384 : Shape := ⟨3, ![1, 1, 16384]⟩

abbrev nBuf : Space → Nat
  | .hbm => 17
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S16384x4096, .i32⟩
  | .hbm, ⟨2, _⟩ => ⟨S16384x128, .f32⟩
  | .hbm, ⟨3, _⟩ => ⟨S16384, .f32⟩
  | .hbm, ⟨4, _⟩ => ⟨S16384x4096, .f32⟩
  | .hbm, ⟨5, _⟩ => ⟨S_, .f32⟩
  | .hbm, ⟨6, _⟩ => ⟨S16384x4096, .f32⟩
  | .hbm, ⟨7, _⟩ => ⟨S16384x4096, .f32⟩
  | .hbm, ⟨8, _⟩ => ⟨S16384x128x32, .f32⟩
  | .hbm, ⟨9, _⟩ => ⟨S16384x128x1, .f32⟩
  | .hbm, ⟨10, _⟩ => ⟨S16384x128x32, .f32⟩
  | .hbm, ⟨11, _⟩ => ⟨S16384x128x32, .f32⟩
  | .hbm, ⟨12, _⟩ => ⟨S16384x4096, .f32⟩
  | .hbm, ⟨13, _⟩ => ⟨S2x2048x16384, .f32⟩
  | .hbm, ⟨14, _⟩ => ⟨S1x1x16384, .f32⟩
  | .hbm, ⟨15, _⟩ => ⟨S2x2048x16384, .f32⟩
  | .hbm, ⟨16, _⟩ => ⟨S2x2048x16384, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]

class Facts₀ : Prop where
  bcast_S_S16384x4096 : S_.BroadcastsInDim S16384x4096 (![] : Fin 0 → Fin S16384x4096.rank)
  shapeCasts_S16384x4096_S16384x128x32 : S16384x4096.ShapeCasts S16384x128x32
  bcast_S16384x128_S16384x128x1_0_1 : S16384x128.BroadcastsInDim S16384x128x1 (![0, 1] : Fin 2 → Fin S16384x128x1.rank)
  bcast_S16384x128x1_S16384x128x32_0_1_2 : S16384x128x1.BroadcastsInDim S16384x128x32 (![0, 1, 2] : Fin 3 → Fin S16384x128x32.rank)
  shapeCasts_S16384x128x32_S16384x4096 : S16384x128x32.ShapeCasts S16384x4096
  bcast_S16384_S1x1x16384_2 : S16384.BroadcastsInDim S1x1x16384 (![2] : Fin 1 → Fin S1x1x16384.rank)
  bcast_S1x1x16384_S2x2048x16384_0_1_2 : S1x1x16384.BroadcastsInDim S2x2048x16384 (![0, 1, 2] : Fin 3 → Fin S2x2048x16384.rank)
  dot_S2x2048x4096_S16384x4096_S2x2048x16384_2_1_01_0_n_n_wf : DotDims.WF S2x2048x4096 S16384x4096 S2x2048x16384 [2] [1] [0, 1] [0] [] []

variable [Facts₀]

def dot_S2x2048x4096_S16384x4096_S2x2048x16384_2_1_01_0_n_n : DotDims S2x2048x4096 S16384x4096 S2x2048x16384 where
  lhsContracting := [2]
  rhsContracting := [1]
  lhsNonContracting := [0, 1]
  rhsNonContracting := [0]
  lhsBatch := []
  rhsBatch := []
  wf := dot_S2x2048x4096_S16384x4096_S2x2048x16384_2_1_01_0_n_n_wf

class Facts : Prop extends Facts₀ where

variable [Facts]
-- ==== Proof.Spec.lean ====
/-
  A linear layer whose weight matrix is stored as integer codes with one scale per group of 32 consecutive
  columns. The weight at output row `o`, column `k` is `(code o k - 128) * scale o (k / 32)`; the layer sends
  a row `x` of 4096 features to `∑ k, x k * weight o k + bias o`, for each of 16384 outputs. This module states
  that function twice, index by index on the extended reals: over a matrix of 4096 rows (`lin`: the two leading
  axes of the input merged into one), and over the input's own three axes (`out`).
-/
import Idealize.ShloMosaic.PureOps.Ideal
import Idealize.ShloMosaic.PureOps.Ideal.Laws
import Idealize.ShloMosaic.Lib.ValueIdx

noncomputable section

namespace Cert.QuantLinear

open Idealize.ShloMosaic Idealize.ShloMosaic.ValueIdx
open scoped BigOperators

/-- Column `k` of a weight row belongs to the group of 32 consecutive columns numbered `k / 32`. -/
abbrev grp (k : Fin 4096) : Fin 128 := ⟨k.val / 32, by have := k.isLt; omega⟩

/-- Inside its group it sits at position `k % 32`. -/
abbrev pos (k : Fin 4096) : Fin 32 := ⟨k.val % 32, Nat.mod_lt _ (by decide)⟩

/-- One dequantized weight: the code read as a signed integer, less the literal 128, times its group's scale. -/
def deq (code : BitVec 32) (scale : EReal) : EReal :=
  (FloatOps.sitofp (F := Ideal) .f32 code - Ideal.ofBits .f32 0x43000000#32) * scale

/-- Entry `(r, o)` of the layer over a matrix `X` of 4096 rows: row `r` of `X` against dequantized weight row
    `o`, plus the bias of output `o` (the bias held as a matrix of one row). -/
def linAt (X : (⟨2, ![4096, 4096]⟩ : Shape).Idx → EReal) (W : (⟨2, ![16384, 4096]⟩ : Shape).Idx → BitVec 32)
    (S : (⟨2, ![16384, 128]⟩ : Shape).Idx → EReal) (B : (⟨2, ![1, 16384]⟩ : Shape).Idx → EReal)
    (r : Fin 4096) (o : Fin 16384) : EReal :=
  (∑ k : Fin 4096, X (ix2 r k) * deq (W (ix2 o k)) (S (ix2 o (grp k)))) + B (ix2 (0 : Fin 1) o)

/-- The layer over a matrix of 4096 rows, as one array of 4096 × 16384 entries. -/
def lin (X : (⟨2, ![4096, 4096]⟩ : Shape).Idx → EReal) (W : (⟨2, ![16384, 4096]⟩ : Shape).Idx → BitVec 32)
    (S : (⟨2, ![16384, 128]⟩ : Shape).Idx → EReal) (B : (⟨2, ![1, 16384]⟩ : Shape).Idx → EReal) :
    (⟨2, ![4096, 16384]⟩ : Shape).Idx → EReal :=
  fun i => linAt X W S B (i 0) (i 1)

/-- Entry `(p, s, o)` of the layer over the input's own axes: feature row `(p, s)` against dequantized weight
    row `o`, plus the bias of output `o`. -/
def outAt (x : (⟨3, ![2, 2048, 4096]⟩ : Shape).Idx → EReal) (W : (⟨2, ![16384, 4096]⟩ : Shape).Idx → BitVec 32)
    (S : (⟨2, ![16384, 128]⟩ : Shape).Idx → EReal) (b : (⟨1, ![16384]⟩ : Shape).Idx → EReal)
    (p : Fin 2) (s : Fin 2048) (o : Fin 16384) : EReal :=
  (∑ k : Fin 4096, x (ix3 p s k) * deq (W (ix2 o k)) (S (ix2 o (grp k)))) + b (ix1 o)

/-- The layer's result, as one array of 2 × 2048 × 16384 entries. -/
def out (x : (⟨3, ![2, 2048, 4096]⟩ : Shape).Idx → EReal) (W : (⟨2, ![16384, 4096]⟩ : Shape).Idx → BitVec 32)
    (S : (⟨2, ![16384, 128]⟩ : Shape).Idx → EReal) (b : (⟨1, ![16384]⟩ : Shape).Idx → EReal) :
    (⟨3, ![2, 2048, 16384]⟩ : Shape).Idx → EReal :=
  fun i => outAt x W S b (i 0) (i 1) (i 2)

end Cert.QuantLinear

end
-- ==== Proof.Payload.lean ====
/-
  What the kernel body computes on one block, read at an entry `(p, q)` of the 512 × 256 output block. The body
  multiplies a 512 × 4096 block of input rows against 256 dequantized weight rows, contracting the 4096 columns
  into a zero accumulator, and adds one row of 256 biases to every row. The weight rows are dequantized in place:
  each code is converted, 128 is subtracted, the row is regrouped as 128 groups of 32, each group is multiplied
  by its scale (a column of scales given a unit axis and repeated across the 32 positions), and the row is
  flattened again. Narrowing a float's format changes nothing on the extended reals. So the entry is
  `∑ k, x (p, k) * weight q k + bias q`, the same expression as the layer's, over the block's own rows.
-/
import proofs.«181299_j34746285425026_1_alg».proof.Proof.Gen.KernelIdeal.Skeleton
import proofs.«181299_j34746285425026_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.QuantLinear.Body

open Cert.KernelIdeal Cert.KernelIdeal.Gen Cert.QuantLinear
open Idealize.ShloMosaic Idealize.ShloMosaic.ValueIdx
open scoped BigOperators

/-- The block product's dimension numbers: both operands contract their second axis. -/
abbrev dims := dot_S512x4096_S256x4096_S512x256_1_1_0_0_n_n

/-! ## Positions -/

/-- Regrouping a row of 4096 columns as 128 groups of 32 puts column `k` at position `k % 32` of group `k / 32`. -/
theorem regroup_apply (A : FVec Ideal S256x4096 .f32) (h : S256x4096.ShapeCasts S256x128x32) (q : Fin 256) (k : Fin 4096) :
    shapeCast S256x128x32 A h (ix3 q (grp k) (pos k)) = A (ix2 q k) :=
  shapeCast_apply A h (ix3 q (grp k) (pos k)) (ix2 q k) (by
    rewrite [Shape.rowMajor_val_two, Shape.rowMajor_val_three]
    have hq := q.isLt; have hk := k.isLt
    show q.val * 4096 + k.val = (q.val * 128 + k.val / 32) * 32 + k.val % 32; omega)

/-- Flattening the groups again reads column `k` from position `k % 32` of group `k / 32`. -/
theorem flatten_apply (A : FVec Ideal S256x128x32 .f32) (h : S256x128x32.ShapeCasts S256x4096) (q : Fin 256) (k : Fin 4096) :
    shapeCast S256x4096 A h (ix2 q k) = A (ix3 q (grp k) (pos k)) :=
  shapeCast_apply A h (ix2 q k) (ix3 q (grp k) (pos k)) (by
    rewrite [Shape.rowMajor_val_two, Shape.rowMajor_val_three]
    have hq := q.isLt; have hk := k.isLt
    show (q.val * 128 + k.val / 32) * 32 + k.val % 32 = q.val * 4096 + k.val; omega)

/-- The scales, given a unit axis and repeated along it: every position of group `g` of row `q` reads scale `(q, g)`. -/
theorem scale_apply (x2 : FVec Ideal S256x128 .f32) (h2 : S256x128.ShapeCasts S256x128x1) (h3 : S256x128x1.Broadcasts S256x128x32)
    (q : Fin 256) (g : Fin 128) (l : Fin 32) :
    broadcastTo S256x128x32 (shapeCast S256x128x1 x2 h2) h3 (ix3 q g l) = x2 (ix2 q g) :=
  (broadcastTo_apply (shapeCast S256x128x1 x2 h2) h3 (ix3 q g l) (ix3 q g (0 : Fin 1)) (fun a => match a with
    | ⟨0, _⟩ => by show q.val = if (256 : Nat) = 1 then 0 else q.val; rw [if_neg (by decide)]
    | ⟨1, _⟩ => by show g.val = if (128 : Nat) = 1 then 0 else g.val; rw [if_neg (by decide)]
    | ⟨2, _⟩ => by show 0 = if (1 : Nat) = 1 then 0 else l.val; rw [if_pos rfl])).trans
  (shapeCast_apply x2 h2 (ix3 q g (0 : Fin 1)) (ix2 q g) (by
    rewrite [Shape.rowMajor_val_two, Shape.rowMajor_val_three]
    show q.val * 128 + g.val = (q.val * 128 + g.val) * 1 + 0; omega))

/-! ## The two operands of the block product, and the bias -/

/-- The right operand at row `q`, column `k`: the code, less the shift, times the scale of `k`'s group. -/
theorem weight_apply (x1 : Vec Ideal S256x4096 .i32) (x2 : FVec Ideal S256x128 .f32)
    (h1 : S256x4096.ShapeCasts S256x128x32) (h2 : S256x128.ShapeCasts S256x128x1) (h3 : S256x128x1.Broadcasts S256x128x32)
    (h4 : S256x128x32.ShapeCasts S256x4096) (hb : FTy.bits .bf16 < FTy.bits .f32) (shift : Ideal .f32) (q : Fin 256) (k : Fin 4096) :
    (truncf .bf16 (shapeCast S256x4096 (mulf (shapeCast S256x128x32 (subf (sitofp .f32 x1)
        (broadcast S256x4096 shift)) h1)
        (broadcastTo S256x128x32 (shapeCast S256x128x1 x2 h2) h3)) h4) hb : FVec Ideal S256x4096 .bf16) (ix2 q k)
      = (FloatOps.sitofp (F := Ideal) .f32 (x1 (ix2 q k)) - shift) * x2 (ix2 q (grp k)) := by
  rw [truncf_apply, flatten_apply, mulf_apply, regroup_apply, scale_apply]
  rfl

/-- The product's left index at output `(p, q)`, contraction position `k`, is `(p, k)`; its right index is `(q, k)`. -/
theorem lhs_row (i : S512x256.Idx) (c : dims.contr.Idx) : (dims.lhsIdx i c 0).val = (i 0).val := by
  unfold DotDims.lhsIdx
  rw [dif_neg (show ¬(0 : Fin S512x4096.rank) ∈ dims.lhsBatch by decide), dif_pos (show (0 : Fin S512x4096.rank) ∈ dims.lhsNonContracting by decide)]
  rfl
theorem lhs_col (i : S512x256.Idx) (c : dims.contr.Idx) : (dims.lhsIdx i c 1).val = (c ⟨0, by decide⟩).val :=
  dims.lhsIdx_val_of_single rfl i c
theorem rhs_row (i : S512x256.Idx) (c : dims.contr.Idx) : (dims.rhsIdx i c 0).val = (i 1).val := by
  unfold DotDims.rhsIdx
  rw [dif_neg (show ¬(0 : Fin S256x4096.rank) ∈ dims.rhsBatch by decide), dif_pos (show (0 : Fin S256x4096.rank) ∈ dims.rhsNonContracting by decide)]
  rfl
theorem rhs_col (i : S512x256.Idx) (c : dims.contr.Idx) : (dims.rhsIdx i c 1).val = (c ⟨0, by decide⟩).val :=
  dims.rhsIdx_val_of_single rfl i c

/-! ## The payload -/

/-- The body's stored block at entry `(p, q)`: input row `p` against dequantized weight row `q`, plus bias `q`. -/
theorem pay_apply (x0 : Vec Ideal S512x4096 .f32) (x1 : Vec Ideal S256x4096 .i32) (x2 : Vec Ideal S256x128 .f32)
    (x3 : Vec Ideal S1x256 .f32) (p : Fin 512) (q : Fin 256) :
    k0_pay1 (F := Ideal) x0 x1 x2 x3 (ix2 p q)
      = (∑ k : Fin 4096, x0 (ix2 p k) * deq (x1 (ix2 q k)) (x2 (ix2 q (grp k)))) + x3 (ix2 (0 : Fin 1) q) := by
  unfold k0_pay1
  rw [addf_apply]
  simp only [matmul]
  rw [Ideal.matmul_constant_zero_apply, ← Equiv.sum_comp (contrEquiv1 dims 4096 rfl rfl).symm, broadcastTo_1b_ab_apply]
  simp only [shapeCast_self]
  refine congrArg (· + x3 (ix2 (0 : Fin 1) q)) (Finset.sum_congr rfl fun k _ => ?_)
  have hk := contrEquiv1_symm_val dims 4096 rfl rfl k
  have el : dims.lhsIdx (ix2 p q) ((contrEquiv1 dims 4096 rfl rfl).symm k) = ix2 p k := funext fun a => Fin.ext (by
    match a with
    | ⟨0, _⟩ => exact lhs_row _ _
    | ⟨1, _⟩ => exact (lhs_col _ _).trans hk)
  have er : dims.rhsIdx (ix2 p q) ((contrEquiv1 dims 4096 rfl rfl).symm k) = ix2 q k := funext fun a => Fin.ext (by
    match a with
    | ⟨0, _⟩ => exact rhs_row _ _
    | ⟨1, _⟩ => exact (rhs_col _ _).trans hk)
  rw [el, er, truncf_apply, weight_apply]
  rfl

end Cert.QuantLinear.Body

end
-- ==== Proof.Region.lean ====
/-
  The 4096 × 16384 array the kernel fills, 512 × 256 blocks at a time over an 8 × 64 grid. Point `t` is block
  row `t / 64`, block column `t % 64`: it reads input rows `512 (t / 64) …`, weight rows, scale rows and biases
  `256 (t % 64) …`, and writes block `(t / 64, t % 64)` of the output. Since every entry of the layer depends on
  one input row and one weight row only, what a point writes is that block of the layer `lin` taken over the
  whole arrays; the 512 blocks tile the output, so after all points the array is `lin` everywhere.
-/
import proofs.«181299_j34746285425026_1_alg».proof.Proof.Gen.KernelIdeal.Frame
import proofs.«181299_j34746285425026_1_alg».proof.Proof.Payload
import Idealize.ShloMosaic.Lib.Pipeline.Value

set_option maxRecDepth 16384

noncomputable section

namespace Cert.QuantLinear.Region

open Cert.KernelIdeal Cert.KernelIdeal.Gen Cert.QuantLinear
open Idealize.ShloMosaic Idealize.ShloMosaic.TcCoe Idealize.ShloMosaic.ValueIdx
open Idealize.SL.Sem
open Idealize.ShloMosaic.Pipeline (Dat)
open scoped BigOperators

variable (m : (ℓ : Loc nD τ sig) → Buf (Elt Ideal) ℓ)

theorem zero_offsets : (![0, 0] : Fin 2 → Nat) = fun _ => 0 := funext fun a => by fin_cases a <;> rfl

/-! ## One block of the layer from one block of each operand -/

/-- If the block's input rows, weight rows, scale rows and biases are rows `r`, `o`, `o` and entry `o` of the whole
    arrays, the block's entry `(p, q)` is the layer's entry `(r, o)`. -/
theorem pay_eq_lin (X : (⟨2, ![4096, 4096]⟩ : Shape).Idx → EReal) (W : (⟨2, ![16384, 4096]⟩ : Shape).Idx → BitVec 32)
    (S : (⟨2, ![16384, 128]⟩ : Shape).Idx → EReal) (B : (⟨2, ![1, 16384]⟩ : Shape).Idx → EReal)
    (x0 : Vec Ideal S512x4096 .f32) (x1 : Vec Ideal S256x4096 .i32) (x2 : Vec Ideal S256x128 .f32) (x3 : Vec Ideal S1x256 .f32)
    (p : Fin 512) (q : Fin 256) (r : Fin 4096) (o : Fin 16384)
    (hx : ∀ k : Fin 4096, x0 (ix2 p k) = X (ix2 r k)) (hw : ∀ k : Fin 4096, x1 (ix2 q k) = W (ix2 o k))
    (hs : ∀ g : Fin 128, x2 (ix2 q g) = S (ix2 o g)) (hb : x3 (ix2 (0 : Fin 1) q) = B (ix2 (0 : Fin 1) o)) :
    k0_pay1 (F := Ideal) x0 x1 x2 x3 (ix2 p q) = lin X W S B (ix2 r o) := by
  rw [Body.pay_apply]
  show _ = linAt X W S B r o
  unfold linAt
  rw [hb]
  refine congrArg (· + B (ix2 (0 : Fin 1) o)) (Finset.sum_congr rfl fun k _ => ?_)
  rw [hx, hw, hs]

/-! ## The schedule -/

/-- The windows' block indices at point `t`, decided over the 512 points. -/
theorem idx_facts : ∀ t : Fin cfg0.N,
    win0_4.index t (0 : Fin 2) = t.val / 64 ∧ win0_4.index t (1 : Fin 2) = t.val % 64
    ∧ win0_0.index t (0 : Fin 2) = t.val / 64 ∧ win0_0.index t (1 : Fin 2) = 0
    ∧ win0_1.index t (0 : Fin 2) = t.val % 64 ∧ win0_1.index t (1 : Fin 2) = 0
    ∧ win0_2.index t (0 : Fin 2) = t.val % 64 ∧ win0_2.index t (1 : Fin 2) = 0
    ∧ win0_3.index t (0 : Fin 2) = 0 ∧ win0_3.index t (1 : Fin 2) = t.val % 64 :=
  (by decide +kernel : ∀ t : Fin grid0.N, _)

/-! ## What a point writes back -/

/-- Point `t` writes block `t` of the layer taken over the arrays as the region finds them. -/
theorem flushed_eq (c : Dev nD) (t : Fin cfg0.N) :
    (dats m 0 c).flushed 4 t = ((cfg0.win 4).blk t).view.read (Elt Ideal)
      (lin (V m c main_v0) (V m c main_arg1) (V m c main_arg2) (V m c main_v1)) := by
  show (cfg0.win 4).cut (grid0.coords t) ((dats m 0 c).after 4 t) = _
  rw [after0_4]
  unfold out0_4
  rw [View.canon_unit_zero zero_offsets]
  simp only [View.ld_unit_zero (S := S512x4096) zero_offsets, View.ld_unit_zero (S := S256x4096) zero_offsets,
    View.ld_unit_zero (S := S256x128) zero_offsets, View.ld_unit_zero (S := S1x256) zero_offsets]
  obtain ⟨e40, e41, e00, e01, e10, e11, e20, e21, e30, e31⟩ := idx_facts t
  have hN : cfg0.N = 512 := N_0
  have ht : t.val < 512 := by have h := t.isLt; omega
  funext j
  obtain ⟨p, q, rfl⟩ : ∃ (p : Fin 512) (q : Fin 256), j = ix2 p q := ⟨j 0, j 1, eq_ix2 j⟩
  have hr : t.val / 64 * 512 + p.val < 4096 := by have := p.isLt; omega
  have ho : t.val % 64 * 256 + q.val < 16384 := by have := q.isLt; omega
  have hemb : ((cfg0.win 4).blk t).view.emb (ix2 p q) = ix2 (⟨t.val / 64 * 512 + p.val, hr⟩ : Fin 4096) (⟨t.val % 64 * 256 + q.val, ho⟩ : Fin 16384) := by
    funext a; apply Fin.ext
    match a with
    | ⟨0, _⟩ => show win0_4.index t (0 : Fin 2) * 512 + 1 * p.val = t.val / 64 * 512 + p.val; omega
    | ⟨1, _⟩ => show win0_4.index t (1 : Fin 2) * 256 + 1 * q.val = t.val % 64 * 256 + q.val; omega
  show k0_pay1 (F := Ideal) (iblk m c 0 t) (iblk m c 1 t) (iblk m c 2 t) (iblk m c 3 t) (ix2 p q)
    = lin (V m c main_v0) (V m c main_arg1) (V m c main_arg2) (V m c main_v1) (((cfg0.win 4).blk t).view.emb (ix2 p q))
  rw [hemb]
  refine pay_eq_lin (V m c main_v0) (V m c main_arg1) (V m c main_arg2) (V m c main_v1)
    (iblk m c 0 t) (iblk m c 1 t) (iblk m c 2 t) (iblk m c 3 t) p q ⟨t.val / 64 * 512 + p.val, hr⟩ ⟨t.val % 64 * 256 + q.val, ho⟩ ?_ ?_ ?_ ?_
  · intro k
    show V m c main_v0 (((cfg0.win 0).blk t).view.emb (ix2 p k)) = V m c main_v0 (ix2 (⟨t.val / 64 * 512 + p.val, hr⟩ : Fin 4096) k)
    refine congrArg (V m c main_v0) (funext fun a => Fin.ext ?_)
    match a with
    | ⟨0, _⟩ => show win0_0.index t (0 : Fin 2) * 512 + 1 * p.val = t.val / 64 * 512 + p.val; omega
    | ⟨1, _⟩ => show win0_0.index t (1 : Fin 2) * 4096 + 1 * k.val = k.val; omega
  · intro k
    show V m c main_arg1 (((cfg0.win 1).blk t).view.emb (ix2 q k)) = V m c main_arg1 (ix2 (⟨t.val % 64 * 256 + q.val, ho⟩ : Fin 16384) k)
    refine congrArg (V m c main_arg1) (funext fun a => Fin.ext ?_)
    match a with
    | ⟨0, _⟩ => show win0_1.index t (0 : Fin 2) * 256 + 1 * q.val = t.val % 64 * 256 + q.val; omega
    | ⟨1, _⟩ => show win0_1.index t (1 : Fin 2) * 4096 + 1 * k.val = k.val; omega
  · intro g
    show V m c main_arg2 (((cfg0.win 2).blk t).view.emb (ix2 q g)) = V m c main_arg2 (ix2 (⟨t.val % 64 * 256 + q.val, ho⟩ : Fin 16384) g)
    refine congrArg (V m c main_arg2) (funext fun a => Fin.ext ?_)
    match a with
    | ⟨0, _⟩ => show win0_2.index t (0 : Fin 2) * 256 + 1 * q.val = t.val % 64 * 256 + q.val; omega
    | ⟨1, _⟩ => show win0_2.index t (1 : Fin 2) * 128 + 1 * g.val = g.val; omega
  · show V m c main_v1 (((cfg0.win 3).blk t).view.emb (ix2 (0 : Fin 1) q)) = V m c main_v1 (ix2 (0 : Fin 1) (⟨t.val % 64 * 256 + q.val, ho⟩ : Fin 16384))
    refine congrArg (V m c main_v1) (funext fun a => Fin.ext ?_)
    match a with
    | ⟨0, _⟩ => show win0_3.index t (0 : Fin 2) * 1 + 1 * 0 = 0; omega
    | ⟨1, _⟩ => show win0_3.index t (1 : Fin 2) * 256 + 1 * q.val = t.val % 64 * 256 + q.val; omega

/-! ## The blocks tile the array -/

/-- An entry is in point `t`'s block iff each coordinate is in the block's range on its axis. -/
theorem mem_blk (t : Fin cfg0.N) (i : S4096x16384.Idx) :
    i ∈ ((cfg0.win 4).blk t).view.set ↔ ∀ a : Fin 2, win0_4.index t a * S512x256.size a ≤ (i a).val ∧ (i a).val < win0_4.index t a * S512x256.size a + S512x256.size a := by
  show i ∈ ((View.whole main_v2).slice (win0_4.rect t)).set ↔ _
  rw [View.set_slice_whole, Rect.mem_set_unit]
  exact Iff.rfl

/-- Entry `(r, o)` lies in the block of the point at block row `r / 512`, block column `o / 256`. -/
theorem cover (i : S4096x16384.Idx) : ∃ t : Fin cfg0.N, (cfg0.win 4).flush t = true ∧ i ∈ ((cfg0.win 4).blk t).view.set := by
  have hi0 : (i 0).val < 4096 := (i 0).isLt
  have hi1 : (i 1).val < 16384 := (i 1).isLt
  obtain ⟨t, ht⟩ : ∃ t : Fin cfg0.N, t.val = (i 0).val / 512 * 64 + (i 1).val / 256 :=
    ⟨⟨(i 0).val / 512 * 64 + (i 1).val / 256, by show _ < grid0.N; rw [N_0]; omega⟩, rfl⟩
  obtain ⟨e40, e41, -⟩ := idx_facts t
  refine ⟨t, flush0_4 t, ?_⟩
  rw [mem_blk]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 256 ≤ (i 1).val ∧ (i 1).val < win0_4.index t (1 : Fin 2) * 256 + 256; omega

/-! ## The array after the run -/

/-- After every point has written its block, the output array is the layer over the arrays the region found. -/
theorem final (c : Dev nD) :
    (dats m 0 c).arrAt 4 cfg0.N = lin (V m c main_v0) (V m c main_arg1) (V m c main_arg2) (V m c main_v1) :=
  (dats m 0 c).arrAt_eq_of_cover 4 _ (fun t _ => flushed_eq m c t) cover

end Cert.QuantLinear.Region

end
-- ==== Proof.Reshape.lean ====
/-
  Merging the input's two leading axes into one row axis, and splitting them again, does not change the layer:
  row `p * 2048 + s` of the merged input is feature row `(p, s)`, a bias vector held as a matrix of one row is the
  same biases, and entry `(p, s, o)` of the split result is entry `(p * 2048 + s, o)` of the merged one. So the
  layer over the merged matrix, split back, is the layer over the input's own axes.
-/
import proofs.«181299_j34746285425026_1_alg».proof.Proof.Spec
import Idealize.ShloMosaic.Lib.Pipeline.Value
import Idealize.ShloMosaic.Lib.ValueLayout

noncomputable section

namespace Cert.QuantLinear

open Idealize.ShloMosaic Idealize.ShloMosaic.ValueIdx
open scoped BigOperators

/-- Feature row `(p, s)` is row `p * 2048 + s` once the two leading axes are merged. -/
abbrev row (p : Fin 2) (s : Fin 2048) : Fin 4096 := ⟨p.val * 2048 + s.val, by have := p.isLt; have := s.isLt; omega⟩

/-- The merged input at row `p * 2048 + s`. -/
theorem merge_apply (x : (⟨3, ![2, 2048, 4096]⟩ : Shape).Idx → EReal)
    (h : (⟨3, ![2, 2048, 4096]⟩ : Shape).ShapeCasts ⟨2, ![4096, 4096]⟩) (p : Fin 2) (s : Fin 2048) (k : Fin 4096) :
    shapeCast ⟨2, ![4096, 4096]⟩ x h (ix2 (row p s) k) = x (ix3 p s k) :=
  shapeCast_apply x h (ix2 (row p s) k) (ix3 p s k) (by
    rewrite [Shape.rowMajor_val_three, Shape.rowMajor_val_two]
    show (p.val * 2048 + s.val) * 4096 + k.val = (p.val * 2048 + s.val) * 4096 + k.val; rfl)

/-- The split result at `(p, s, o)`. -/
theorem split_apply (A : (⟨2, ![4096, 16384]⟩ : Shape).Idx → EReal)
    (h : (⟨2, ![4096, 16384]⟩ : Shape).ShapeCasts ⟨3, ![2, 2048, 16384]⟩) (p : Fin 2) (s : Fin 2048) (o : Fin 16384) :
    shapeCast ⟨3, ![2, 2048, 16384]⟩ A h (ix3 p s o) = A (ix2 (row p s) o) :=
  shapeCast_apply A h (ix3 p s o) (ix2 (row p s) o) (by
    rewrite [Shape.rowMajor_val_three, Shape.rowMajor_val_two]
    show (p.val * 2048 + s.val) * 16384 + o.val = (p.val * 2048 + s.val) * 16384 + o.val; rfl)

/-- The layer over the merged input and the one-row bias, split back, is the layer over the input's own axes. -/
theorem split_lin_merge (x : (⟨3, ![2, 2048, 4096]⟩ : Shape).Idx → EReal) (W : (⟨2, ![16384, 4096]⟩ : Shape).Idx → BitVec 32)
    (S : (⟨2, ![16384, 128]⟩ : Shape).Idx → EReal) (b : (⟨1, ![16384]⟩ : Shape).Idx → EReal)
    (hx : (⟨3, ![2, 2048, 4096]⟩ : Shape).ShapeCasts ⟨2, ![4096, 4096]⟩) (hb : (⟨1, ![16384]⟩ : Shape).ShapeCasts ⟨2, ![1, 16384]⟩)
    (ho : (⟨2, ![4096, 16384]⟩ : Shape).ShapeCasts ⟨3, ![2, 2048, 16384]⟩) :
    shapeCast ⟨3, ![2, 2048, 16384]⟩ (lin (shapeCast ⟨2, ![4096, 4096]⟩ x hx) W S (shapeCast ⟨2, ![1, 16384]⟩ b hb)) ho
      = out x W S b := by
  funext i
  obtain ⟨p, s, o, rfl⟩ : ∃ (p : Fin 2) (s : Fin 2048) (o : Fin 16384), i = ix3 p s o := ⟨i 0, i 1, i 2, eq_ix3 i⟩
  rw [split_apply]
  show linAt (shapeCast ⟨2, ![4096, 4096]⟩ x hx) W S (shapeCast ⟨2, ![1, 16384]⟩ b hb) (row p s) o = outAt x W S b p s o
  unfold linAt outAt
  rw [shapeCast_a_1a_apply]
  refine congrArg (· + b (ix1 o)) (Finset.sum_congr rfl fun k _ => ?_)
  rw [merge_apply]

end Cert.QuantLinear

end
-- ==== Proof.KernelValue.lean ====
/-
  The kernel's whole program on the extended reals. Before the blocks are processed the input's two leading axes
  are merged into 4096 rows and the bias is held as a matrix of one row; afterwards the 4096 rows of the result
  are split back into 2 × 2048. Between them the 4096 × 16384 array ends at the layer `lin` over what was found
  there (`Region.final`). Merging, applying `lin`, and splitting is the layer `out` over the arguments
  themselves (`split_lin_merge`), so every run ends with the result array at `out` of the argument arrays and the
  argument arrays as they were.
-/
import proofs.«181299_j34746285425026_1_alg».proof.Proof.Region
import proofs.«181299_j34746285425026_1_alg».proof.Proof.Reshape
import Idealize.ShloMosaic.Lib.StableHlo.Run

set_option maxRecDepth 16384

noncomputable section

namespace Cert.QuantLinear.Kernel

open Cert.KernelIdeal Cert.KernelIdeal.Gen Cert.QuantLinear
open Idealize.ShloMosaic Idealize.ShloMosaic.TcCoe Idealize.ShloMosaic.StableHlo
open Idealize.SL.Sem
open Idealize.ShloMosaic.Pipeline (Dat)

variable (m : (ℓ : Loc nD τ sig) → Buf (Elt Ideal) ℓ) (ρ : Dev nD → PrngReg)

/-! ## Before the blocks -/

/-- The matrix of input rows the blocks are cut from: the input with its two leading axes merged. -/
theorem merged_input (c : Dev nD) : (V m c main_v0 : S4096x4096.Idx → EReal)
    = shapeCast S4096x4096 (m ((c : Thread nD τ).loc main_arg0)) shapeCasts_S2x2048x4096_S4096x4096 := by
  show StableHlo.after hostOps0 (fun b => m (c, b)) (Proc.devRef .tc main_v0) = _
  after_results; rfl

/-- The one-row matrix the bias blocks are cut from: the bias vector. -/
theorem bias_row (c : Dev nD) : (V m c main_v1 : S1x16384.Idx → EReal)
    = shapeCast S1x16384 (m ((c : Thread nD τ).loc main_arg3)) shapeCasts_S16384_S1x16384 := by
  show StableHlo.after hostOps0 (fun b => m (c, b)) (Proc.devRef .tc main_v1) = _
  after_results; rfl

/-! ## After the blocks -/

/-- The filled array is the layer over the merged input, the codes, the scales and the one-row bias. -/
theorem filled (c : Dev nD) :
    (dats m 0 c).arrAt 4 cfg0.N
      = lin (shapeCast S4096x4096 (m ((c : Thread nD τ).loc main_arg0)) shapeCasts_S2x2048x4096_S4096x4096)
          (m ((c : Thread nD τ).loc main_arg1)) (m ((c : Thread nD τ).loc main_arg2))
          (shapeCast S1x16384 (m ((c : Thread nD τ).loc main_arg3)) shapeCasts_S16384_S1x16384) := by
  rw [Region.final, merged_input, bias_row, V_main_arg1, V_main_arg2]

/-- The result is the filled array with its rows split back into the two leading axes. -/
theorem split_rows (c : Dev nD) :
    (Pipeline.afterTail₀ cfgs (dats m) 0 (V0 m) [hostOps1] c main_v3 : S2x2048x16384.Idx → EReal)
      = shapeCast S2x2048x16384 ((dats m 0 c).arrAt 4 cfg0.N) shapeCasts_S4096x16384_S2x2048x16384 := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.devRef .tc main_v2)
      = (dats m 0 c).arrAt 4 cfg0.N :=
    Pipeline.withArrays_arr spec0 launch0.win.arr_inj c (V0 m c) (fun w => (dats m 0 c).arrAt w cfg0.N) 4
  rw [e]
  rfl

/-- The result is the layer over the argument arrays. -/
theorem result_eq (c : Dev nD) :
    (Pipeline.afterTail₀ cfgs (dats m) 0 (V0 m) [hostOps1] c main_v3 : S2x2048x16384.Idx → EReal)
      = out (m ((c : Thread nD τ).loc main_arg0)) (m ((c : Thread nD τ).loc main_arg1))
          (m ((c : Thread nD τ).loc main_arg2)) (m ((c : Thread nD τ).loc main_arg3)) := by
  rw [split_rows, filled]
  exact split_lin_merge _ _ _ _ _ _ _

/-! ## The run -/

/-- Every weakly fair execution terminates without a fault, with the result array at the layer over the argument
    arrays and the argument arrays unchanged. -/
theorem run : θ_run defs (onTc (τ := τ) (main (F := Ideal))) ⟨m, fun _ => 0, ρ⟩ (fun r => ∀ c : Dev nD,
      r.2.mem ((c.tc : Thread nD τ).loc main_v3)
        = out (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v3 (Pipeline.mem_restRefs_of main_v3 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c)⟩)
    (run_main m ρ)

end Cert.QuantLinear.Kernel

end
-- ==== Proof.RefValue.lean ====
/-
  The reference computes the layer directly. It converts every code to a float, subtracts 128, regroups each
  weight row of 4096 columns as 128 groups of 32, multiplies each group by its scale, flattens the row again,
  contracts the input's feature axis against the weight's column axis, and adds the bias along the last axis.
  Read at an index `(p, s, o)` that is `∑ k, x (p, s, k) * weight o k + bias o`. The only arithmetic is about
  positions: column `k` of a row is position `k % 32` of group `k / 32`, and flattening puts it back at `k`.
-/
import proofs.«181299_j34746285425026_1_alg».proof.Proof.Gen.ReferenceIdeal.Read
import proofs.«181299_j34746285425026_1_alg».proof.Proof.Spec

noncomputable section

namespace Cert.QuantLinear.Ref

open Cert.ReferenceIdeal Cert.ReferenceIdeal.Read Cert.QuantLinear
open Idealize.ShloMosaic Idealize.ShloMosaic.ValueIdx
open scoped BigOperators

/-- The contraction pairs feature `k` of row `(p, s)` … -/
theorem lidx_eq (p : Fin 2) (s : Fin 2048) (o : Fin 16384) (k : Fin 4096) :
    lidx_main_v8 (ix3 p s o) k = ix3 p s k :=
  funext fun a => Fin.ext (by match a with | ⟨0, _⟩ => rfl | ⟨1, _⟩ => rfl | ⟨2, _⟩ => rfl)

/-- … with column `k` of weight row `o`. -/
theorem ridx_eq (p : Fin 2) (s : Fin 2048) (o : Fin 16384) (k : Fin 4096) :
    ridx_main_v8 (ix3 p s o) k = ix2 o k :=
  funext fun a => Fin.ext (by match a with | ⟨0, _⟩ => rfl | ⟨1, _⟩ => rfl)

/-- Column `k` of the flattened row `o` is position `k % 32` of group `k / 32`. -/
theorem flat_eq (o : Fin 16384) (k : Fin 4096) : idx_main_v7 (ix2 o k) = ix3 o (grp k) (pos k) :=
  funext fun a => Fin.ext (by
    have ho := o.isLt; have hk := k.isLt
    match a with
    | ⟨0, _⟩ => show (o.val * 4096 + k.val) / 4096 = o.val; omega
    | ⟨1, _⟩ => show (o.val * 4096 + k.val) / 32 % 128 = k.val / 32; omega
    | ⟨2, _⟩ => show (o.val * 4096 + k.val) % 32 = k.val % 32; omega)

/-- Position `k % 32` of group `k / 32` of the regrouped row `o` is column `k` of the row. -/
theorem group_eq (o : Fin 16384) (k : Fin 4096) : idx_main_v3 (ix3 o (grp k) (pos k)) = ix2 o k :=
  funext fun a => Fin.ext (by
    have ho := o.isLt; have hk := k.isLt
    match a with
    | ⟨0, _⟩ => show ((o.val * 128 + k.val / 32) * 32 + k.val % 32) / 4096 = o.val; omega
    | ⟨1, _⟩ => show ((o.val * 128 + k.val / 32) * 32 + k.val % 32) % 4096 = k.val; omega)

/-- The scale of a group does not depend on the position inside it. -/
theorem scale_eq (o : Fin 16384) (k : Fin 4096) : idx_main_v4 (idx_main_v5 (ix3 o (grp k) (pos k))) = ix2 o (grp k) :=
  funext fun a => Fin.ext (by match a with | ⟨0, _⟩ => rfl | ⟨1, _⟩ => rfl)

/-- The bias of output `o` does not depend on the row. -/
theorem bias_eq (p : Fin 2) (s : Fin 2048) (o : Fin 16384) : idx_main_v9 (idx_main_v10 (ix3 p s o)) = ix1 o :=
  funext fun a => Fin.ext (by match a with | ⟨0, _⟩ => rfl)

/-- One dequantized weight of the reference, at row `o`, column `k`. -/
theorem weight_apply (x1 : (⟨S16384x4096, .i32⟩ : BufTy).Contents (Elt Ideal)) (x2 : (⟨S16384x128, .f32⟩ : BufTy).Contents (Elt Ideal))
    (o : Fin 16384) (k : Fin 4096) :
    val_main_v7 (F := Ideal) x1 x2 (ix2 o k) = deq (x1 (ix2 o k)) (x2 (ix2 o (grp k))) := by
  rw [val_main_v7_apply, flat_eq, val_main_v6_apply, val_main_v3_apply, group_eq, val_main_v2_apply, val_main_v0_apply,
    val_main_v1_apply, val_main_cst_apply, val_main_v5_apply, val_main_v4_apply, scale_eq]
  rfl

/-- The reference's result is the layer's, index by index. -/
theorem result_eq (x0 : (⟨S2x2048x4096, .f32⟩ : BufTy).Contents (Elt Ideal)) (x1 : (⟨S16384x4096, .i32⟩ : BufTy).Contents (Elt Ideal))
    (x2 : (⟨S16384x128, .f32⟩ : BufTy).Contents (Elt Ideal)) (x3 : (⟨S16384, .f32⟩ : BufTy).Contents (Elt Ideal)) :
    val_main_v11 (F := Ideal) x0 x1 x2 x3 = out x0 x1 x2 x3 := by
  funext i
  obtain ⟨p, s, o, rfl⟩ : ∃ (p : Fin 2) (s : Fin 2048) (o : Fin 16384), i = ix3 p s o := ⟨i 0, i 1, i 2, eq_ix3 i⟩
  rw [val_main_v11_apply, val_main_v8_apply, val_main_v10_apply, val_main_v9_apply, bias_eq]
  show (∑ k : Fin 4096, x0 (lidx_main_v8 (ix3 p s o) k) * val_main_v7 (F := Ideal) x1 x2 (ridx_main_v8 (ix3 p s o) k)) + x3 (ix1 o)
    = (∑ k : Fin 4096, x0 (ix3 p s k) * deq (x1 (ix2 o k)) (x2 (ix2 o (grp k)))) + x3 (ix1 o)
  refine congrArg (· + x3 (ix1 o)) (Finset.sum_congr rfl fun k _ => ?_)
  rw [lidx_eq, ridx_eq, weight_apply]

end Cert.QuantLinear.Ref

end
-- ==== Proof.lean ====
/-
  A linear layer with group-quantized weights: for every feature row `(p, s)` of the input and every output `o`,
  `∑ k, x (p, s, k) * ((code o k - 128) * scale o (k / 32)) + bias o`.

  The kernel merges the input's two leading axes, cuts the 4096 × 16384 result into 512 × 256 blocks, computes each
  block from 512 input rows and 256 weight rows dequantized in place, and splits the rows back. The reference
  dequantizes the whole weight matrix and contracts it against the input directly. On the extended reals a change of
  float format is the identity and a block product into a zero accumulator is a plain sum, so both programs end at
  the same function `out` of the argument arrays, entry by entry, with the same sum in the same order: no law of
  arithmetic beyond that is used, and the inputs' finiteness is never needed.

  The kernel's side: `Payload` (one block's entry), `Region` (the blocks tile the array), `Reshape` (merging and
  splitting the row axis), `KernelValue` (the whole run). The reference's side: `RefValue`. The idealization
  rewrites nothing, so the conjunct relating the kernel to its idealization is trivial.
-/
import proofs.«181299_j34746285425026_1_alg».proof.Defs
import proofs.«181299_j34746285425026_1_alg».proof.Proof.Gen.Kernel
import proofs.«181299_j34746285425026_1_alg».proof.Proof.Gen.Kernel.Skeleton
import proofs.«181299_j34746285425026_1_alg».proof.Proof.Gen.Kernel.Launch
import proofs.«181299_j34746285425026_1_alg».proof.Proof.Gen.Kernel.Points
import proofs.«181299_j34746285425026_1_alg».proof.Proof.Gen.Kernel.Frame
import proofs.«181299_j34746285425026_1_alg».proof.Proof.Gen.KernelIdeal
import proofs.«181299_j34746285425026_1_alg».proof.Proof.Gen.KernelIdeal.Skeleton
import proofs.«181299_j34746285425026_1_alg».proof.Proof.Gen.KernelIdeal.Launch
import proofs.«181299_j34746285425026_1_alg».proof.Proof.Gen.KernelIdeal.Points
import proofs.«181299_j34746285425026_1_alg».proof.Proof.Gen.KernelIdeal.Frame
import proofs.«181299_j34746285425026_1_alg».proof.Proof.Gen.ReferenceIdeal
import proofs.«181299_j34746285425026_1_alg».proof.Proof.Gen.ReferenceIdeal.Run
import proofs.«181299_j34746285425026_1_alg».proof.Proof.Gen.ReferenceIdeal.Read
import proofs.«181299_j34746285425026_1_alg».proof.Proof.Gen.Pre_finite_inputs
import Idealize.ShloMosaic.Adequacy
import Idealize.ShloMosaic.Init
import proofs.«181299_j34746285425026_1_alg».proof.Proof.KernelValue
import proofs.«181299_j34746285425026_1_alg».proof.Proof.RefValue

noncomputable section

namespace Cert.Proof

open Idealize.ShloMosaic Idealize.SL.Sem

/-- The kernel as printed terminates without a fault and leaves its arguments unchanged. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- So does the reference: its run, with the statement about the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments, the kernel and the reference both end with the result at the layer
    `out` of those arguments. -/
theorem algebraic : Cert.algebraic_KernelIdeal_ReferenceIdeal := by
  intro m ρ m' ρ' _ hagree
  refine ⟨_, Cert.QuantLinear.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.QuantLinear.Ref.result_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
